-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x2x2 : Shape := ⟨4, ![512, 512, 2, 2]⟩
abbrev S2x121 : Shape := ⟨2, ![2, 121]⟩
abbrev S_ : Shape := ⟨0, ![]⟩

class Facts : Prop where
  bcast_S_S512x512x2x2 : S_.BroadcastsInDim S512x512x2x2 (![] : Fin 0 → Fin S512x512x2x2.rank)
  reducesTo_S512x512x2x2_S_d0_1_2_3 : S512x512x2x2.ReducesTo [0, 1, 2, 3] S_
  h_S_ : 0 < S_.numel
  bcast_S_S2x121 : S_.BroadcastsInDim S2x121 (![] : Fin 0 → Fin S2x121.rank)
  reducesTo_S2x121_S_d0_1 : S2x121.ReducesTo [0, 1] S_

variable [Facts]

def fn {F : FTy → Type} [FloatOps F] (main_arg0 : FVec F S512x512x2x2 .f32) (main_arg1 : FVec F S2x121 .f32) : IVec S_ 1 :=
  let main_v0 : FVec F S512x512x2x2 .f32 := Host.absf main_arg0
  let main_cst : FVec F S_ .f32 := constant S_ .f32 0x7F800000#32
  let main_v1 : FVec F S512x512x2x2 .f32 := broadcastInDim S512x512x2x2 ![] bcast_S_S512x512x2x2 main_cst
  let main_v2 : IVec S512x512x2x2 1 := cmpf .olt main_v0 main_v1
  let main_c : IVec S_ 1 := constantI S_ 1 1#1
  let main_v3 : IVec S_ 1 := (fun x v => Host.reduce IntOp.andi x v reducesTo_S512x512x2x2_S_d0_1_2_3 h_S_) main_v2 main_c
  let main_v4 : FVec F S2x121 .f32 := Host.absf main_arg1
  let main_cst_0 : FVec F S_ .f32 := constant S_ .f32 0x7F800000#32
  let main_v5 : FVec F S2x121 .f32 := broadcastInDim S2x121 ![] bcast_S_S2x121 main_cst_0
  let main_v6 : IVec S2x121 1 := cmpf .olt main_v4 main_v5
  let main_c_1 : IVec S_ 1 := constantI S_ 1 1#1
  let main_v7 : IVec S_ 1 := (fun x v => Host.reduce IntOp.andi x v reducesTo_S2x121_S_d0_1 h_S_) main_v6 main_c_1
  let main_v8 : IVec S_ 1 := andi main_v3 main_v7
  main_v8
-- ==== Kernel.lean ====
abbrev S512x512x2x2 : Shape := ⟨4, ![512, 512, 2, 2]⟩
abbrev S2x121 : Shape := ⟨2, ![2, 121]⟩
abbrev S512x512x1x1 : Shape := ⟨4, ![512, 512, 1, 1]⟩
abbrev S512x512 : Shape := ⟨2, ![512, 512]⟩
abbrev S1x121 : Shape := ⟨2, ![1, 121]⟩
abbrev S121 : Shape := ⟨1, ![121]⟩
abbrev S3x121 : Shape := ⟨2, ![3, 121]⟩
abbrev S512x512x121 : Shape := ⟨3, ![512, 512, 121]⟩
abbrev S256x128 : Shape := ⟨2, ![256, 128]⟩
abbrev S256x128x121 : Shape := ⟨3, ![256, 128, 121]⟩
abbrev S256x128x1 : Shape := ⟨3, ![256, 128, 1]⟩
abbrev S1x1x121 : Shape := ⟨3, ![1, 1, 121]⟩
abbrev S512x512x11x11 : Shape := ⟨4, ![512, 512, 11, 11]⟩

abbrev nBuf : Space → Nat
  | .hbm => 21
  | .vmem => 9
  | .smem => 0
  | _ => 0

abbrev bufTy : (tb : Table) → Fin (tcTables nBuf tb) → BufTy
  | .hbm, ⟨0, _⟩ => ⟨S512x512x2x2, .f32⟩
  | .hbm, ⟨1, _⟩ => ⟨S2x121, .f32⟩
  | .hbm, ⟨2, _⟩ => ⟨S512x512x1x1, .f32⟩
  | .hbm, ⟨3, _⟩ => ⟨S512x512, .f32⟩
  | .hbm, ⟨4, _⟩ => ⟨S512x512x1x1, .f32⟩
  | .hbm, ⟨5, _⟩ => ⟨S512x512, .f32⟩
  | .hbm, ⟨6, _⟩ => ⟨S512x512x1x1, .f32⟩
  | .hbm, ⟨7, _⟩ => ⟨S512x512, .f32⟩
  | .hbm, ⟨8, _⟩ => ⟨S1x121, .f32⟩
  | .hbm, ⟨9, _⟩ => ⟨S121, .f32⟩
  | .hbm, ⟨10, _⟩ => ⟨S1x121, .f32⟩
  | .hbm, ⟨11, _⟩ => ⟨S121, .f32⟩
  | .hbm, ⟨12, _⟩ => ⟨S121, .f32⟩
  | .hbm, ⟨13, _⟩ => ⟨S121, .f32⟩
  | .hbm, ⟨14, _⟩ => ⟨S121, .f32⟩
  | .hbm, ⟨15, _⟩ => ⟨S1x121, .f32⟩
  | .hbm, ⟨16, _⟩ => ⟨S1x121, .f32⟩
  | .hbm, ⟨17, _⟩ => ⟨S1x121, .f32⟩
  | .hbm, ⟨18, _⟩ => ⟨S3x121, .f32⟩
  | .hbm, ⟨19, _⟩ => ⟨S512x512x121, .f32⟩
  | .hbm, ⟨20, _⟩ => ⟨S512x512x11x11, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S3x121, .f32⟩
  | .local _ .vmem, ⟨7, _⟩ => ⟨S256x128x121, .f32⟩
  | .local _ .vmem, ⟨8, _⟩ => ⟨S256x128x121, .f32⟩
  | _, _ => ⟨S512x512x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x121 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128x121 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S512x512x2x2_S512x512x1x1_0_0_0_0 : S512x512x2x2.Slices ![0, 0, 0, 0] S512x512x1x1
  shapeCasts_S512x512x1x1_S512x512 : S512x512x1x1.ShapeCasts S512x512
  slices_S512x512x2x2_S512x512x1x1_0_0_1_0 : S512x512x2x2.Slices ![0, 0, 1, 0] S512x512x1x1
  slices_S512x512x2x2_S512x512x1x1_0_0_1_1 : S512x512x2x2.Slices ![0, 0, 1, 1] S512x512x1x1
  slices_S2x121_S1x121_0_0 : S2x121.Slices ![0, 0] S1x121
  shapeCasts_S1x121_S121 : S1x121.ShapeCasts S121
  slices_S2x121_S1x121_1_0 : S2x121.Slices ![1, 0] S1x121
  bcast_S121_S1x121_1 : S121.BroadcastsInDim S1x121 (![1] : Fin 1 → Fin S1x121.rank)
  concatenates_S1x121_S1x121_S1x121_S3x121_d0 : Shape.Concatenates [S1x121, S1x121, S1x121] S3x121 0
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S3x121_S3x121_0_0 : ∀ a, (![0, 0] : Fin 2 → Nat) a + S3x121.size a ≤ S3x121.size a
  h_S3x121 : 0 < S3x121.numel
  shapeCasts_S3x121_S3x121 : S3x121.ShapeCasts S3x121
  slices_S3x121_o0_0_S1x121 : S3x121.Slices ![0, 0] S1x121
  slices_S3x121_o1_0_S1x121 : S3x121.Slices ![1, 0] S1x121
  slices_S3x121_o2_0_S1x121 : S3x121.Slices ![2, 0] S1x121
  shapeCasts_S256x128_S256x128x1 : S256x128.ShapeCasts S256x128x1
  shapeCasts_S121_S1x1x121 : S121.ShapeCasts S1x1x121
  broadcasts_S256x128x1_S256x128x121 : S256x128x1.Broadcasts S256x128x121
  broadcasts_S1x1x121_S256x128x121 : S1x1x121.Broadcasts S256x128x121
  inb_S256x128x121_S256x128x121_0_0_0 : ∀ a, (![0, 0, 0] : Fin 3 → Nat) a + S256x128x121.size a ≤ S256x128x121.size a
  h_S256x128x121 : 0 < S256x128x121.numel
  shapeCasts_S512x512x121_S512x512x11x11 : S512x512x121.ShapeCasts S512x512x11x11
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S512x512.size a
  hwx0_0 : ∀ i : grid0.Coords, EltTy.bits .f32 = 32 ∨ (Rect.block (s := S512x512) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S512x512.size a
  hwx0_1 : ∀ i : grid0.Coords, EltTy.bits .f32 = 32 ∨ (Rect.block (s := S512x512) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S512x512.size a
  hwx0_2 : ∀ i : grid0.Coords, EltTy.bits .f32 = 32 ∨ (Rect.block (s := S512x512) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x121.size a ≤ S3x121.size a
  hwx0_3 : ∀ i : grid0.Coords, EltTy.bits .f32 = 32 ∨ (Rect.block (s := S3x121) S3x121.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128x121.size a ≤ S512x512x121.size a
  hwx0_4 : ∀ i : grid0.Coords, EltTy.bits .f32 = 32 ∨ (Rect.block (s := S512x512x121) S256x128x121.size (cc0_transform_4 i) (hinb0_4 i)).WholeWords (EltTy.packing .f32)

variable [Facts₀]

abbrev win0_0 : Pipeline.Window sig grid0 :=
  Pipeline.Window.ofSpec (Memref.whole main_v1) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S3x121.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S256x128x121.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x512x2x2 : Shape := ⟨4, ![512, 512, 2, 2]⟩
abbrev S2x121 : Shape := ⟨2, ![2, 121]⟩
abbrev S512x512x1x1 : Shape := ⟨4, ![512, 512, 1, 1]⟩
abbrev S512x512 : Shape := ⟨2, ![512, 512]⟩
abbrev S512x512x1 : Shape := ⟨3, ![512, 512, 1]⟩
abbrev S1x121 : Shape := ⟨2, ![1, 121]⟩
abbrev S121 : Shape := ⟨1, ![121]⟩
abbrev S1x1x121 : Shape := ⟨3, ![1, 1, 121]⟩
abbrev S512x512x121 : Shape := ⟨3, ![512, 512, 121]⟩
abbrev S512x512x11x11 : Shape := ⟨4, ![512, 512, 11, 11]⟩

abbrev nBuf : Space → Nat
  | .hbm => 32
  | .vmem => 0
  | .smem => 0
  | _ => 0

abbrev bufTy : (tb : Table) → Fin (tcTables nBuf tb) → BufTy
  | .hbm, ⟨0, _⟩ => ⟨S512x512x2x2, .f32⟩
  | .hbm, ⟨1, _⟩ => ⟨S2x121, .f32⟩
  | .hbm, ⟨2, _⟩ => ⟨S512x512x1x1, .f32⟩
  | .hbm, ⟨3, _⟩ => ⟨S512x512, .f32⟩
  | .hbm, ⟨4, _⟩ => ⟨S512x512, .f32⟩
  | .hbm, ⟨5, _⟩ => ⟨S512x512x1, .f32⟩
  | .hbm, ⟨6, _⟩ => ⟨S512x512x1x1, .f32⟩
  | .hbm, ⟨7, _⟩ => ⟨S512x512, .f32⟩
  | .hbm, ⟨8, _⟩ => ⟨S512x512x1, .f32⟩
  | .hbm, ⟨9, _⟩ => ⟨S512x512x1x1, .f32⟩
  | .hbm, ⟨10, _⟩ => ⟨S512x512, .f32⟩
  | .hbm, ⟨11, _⟩ => ⟨S512x512, .f32⟩
  | .hbm, ⟨12, _⟩ => ⟨S512x512x1, .f32⟩
  | .hbm, ⟨13, _⟩ => ⟨S1x121, .f32⟩
  | .hbm, ⟨14, _⟩ => ⟨S121, .f32⟩
  | .hbm, ⟨15, _⟩ => ⟨S1x121, .f32⟩
  | .hbm, ⟨16, _⟩ => ⟨S121, .f32⟩
  | .hbm, ⟨17, _⟩ => ⟨S1x1x121, .f32⟩
  | .hbm, ⟨18, _⟩ => ⟨S512x512x121, .f32⟩
  | .hbm, ⟨19, _⟩ => ⟨S512x512x121, .f32⟩
  | .hbm, ⟨20, _⟩ => ⟨S512x512x121, .f32⟩
  | .hbm, ⟨21, _⟩ => ⟨S512x512x121, .f32⟩
  | .hbm, ⟨22, _⟩ => ⟨S512x512x121, .f32⟩
  | .hbm, ⟨23, _⟩ => ⟨S1x1x121, .f32⟩
  | .hbm, ⟨24, _⟩ => ⟨S512x512x121, .f32⟩
  | .hbm, ⟨25, _⟩ => ⟨S512x512x121, .f32⟩
  | .hbm, ⟨26, _⟩ => ⟨S512x512x121, .f32⟩
  | .hbm, ⟨27, _⟩ => ⟨S512x512x121, .f32⟩
  | .hbm, ⟨28, _⟩ => ⟨S512x512x121, .f32⟩
  | .hbm, ⟨29, _⟩ => ⟨S512x512x121, .f32⟩
  | .hbm, ⟨30, _⟩ => ⟨S512x512x121, .f32⟩
  | .hbm, ⟨31, _⟩ => ⟨S512x512x11x11, .f32⟩
  | _, _ => ⟨S512x512x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩

abbrev nD : Nat := 1
abbrev τ : Topo := Topo.v7x

variable {F : FTy → Type} [FloatOps F]

class Facts₀ : Prop where
  slices_S512x512x2x2_S512x512x1x1_0_0_0_0 : S512x512x2x2.Slices ![0, 0, 0, 0] S512x512x1x1
  shapeCasts_S512x512x1x1_S512x512 : S512x512x1x1.ShapeCasts S512x512
  bcast_S512x512_S512x512x1_0_1 : S512x512.BroadcastsInDim S512x512x1 (![0, 1] : Fin 2 → Fin S512x512x1.rank)
  slices_S512x512x2x2_S512x512x1x1_0_0_1_0 : S512x512x2x2.Slices ![0, 0, 1, 0] S512x512x1x1
  slices_S512x512x2x2_S512x512x1x1_0_0_1_1 : S512x512x2x2.Slices ![0, 0, 1, 1] S512x512x1x1
  slices_S2x121_S1x121_0_0 : S2x121.Slices ![0, 0] S1x121
  shapeCasts_S1x121_S121 : S1x121.ShapeCasts S121
  slices_S2x121_S1x121_1_0 : S2x121.Slices ![1, 0] S1x121
  bcast_S121_S1x1x121_2 : S121.BroadcastsInDim S1x1x121 (![2] : Fin 1 → Fin S1x1x121.rank)
  bcast_S1x1x121_S512x512x121_0_1_2 : S1x1x121.BroadcastsInDim S512x512x121 (![0, 1, 2] : Fin 3 → Fin S512x512x121.rank)
  bcast_S512x512x1_S512x512x121_0_1_2 : S512x512x1.BroadcastsInDim S512x512x121 (![0, 1, 2] : Fin 3 → Fin S512x512x121.rank)
  shapeCasts_S512x512x121_S512x512x11x11 : S512x512x121.ShapeCasts S512x512x11x11

variable [Facts₀]

class Facts : Prop extends Facts₀ where

variable [Facts]
-- ==== Proof.KernelAround.lean ====
/-
  The launch of the one pallas_call of this program, and the frame it gives.

  The program is three stretches: host lines that cut the two argument arrays into the three coefficient planes
  a, c, d (each [512,512]) and build the basis rows x1², x1·x2, x2² (stacked as [3,121]); one region over a
  2×4 grid whose point (i, j) reads the [256,128] blocks (i, j) of the three planes and the whole basis, and
  writes the [256,128,121] block (i, j, 0) of the result; one host line that re-lays the [512,512,121] result
  as [512,512,11,11].

  Stated here, for any float instance: what every array holds when the region is entered (`entry`), the block
  of each window at a grid point (`blockAt`), what the body leaves in the output window's buffer as ONE pure
  function of the four input blocks (`quadBlock`: its single whole-buffer store), the body's triple, the
  pipeline's proof data, and the run of the whole program around the region (`run_around`), from which the
  frame claim (`frame`) is read: no host line writes an argument array, before the region or after it.
-/
import proofs.«145979_j20779051778538_2_alg».proof.Proof.Gen.Kernel.Launch
import proofs.«145979_j20779051778538_2_alg».proof.Proof.Gen.Kernel.Skeleton
import proofs.«145979_j20779051778538_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch memory after the seventeen host lines
    that cut the planes and build the basis. -/
abbrev entry (c : Dev nD) : Valuation τ sig (Elt F) := StableHlo.after (List.flatten [hostOps0]) (fun b => m (c, b))
/-- The same, read at one TensorCore buffer. -/
abbrev entryAt (c : Dev nD) (b : Ref sig .tc) : Buf (Elt F) ((c : Thread nD τ).loc b) := entry m c (Proc.devRef .tc b)

/-- The host lines allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is the host lines before the region, the region, and the re-laying line after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes no array a window stages: its one result is the re-laid [512,512,11,11] buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the first argument array: the region finds it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- Nor the second. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- The line after the region does not write the first argument array either: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c
/-- Nor the second. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's current staging buffer holds its block at every point, whether the pipeline fetched it
    there or not (the basis is fetched once: its block index never moves), for any proof data over the entry
    arrays whose body leaves the block in place. One statement per input window. -/
theorem found0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and what it leaves -/

/-- The whole [256,128] plane block, the whole [3,121] basis, the whole [256,128,121] output block. -/
abbrev planeBox : Rect S256x128 := Rect.unit (s := S256x128) ![0, 0] S256x128.size inb_S256x128_S256x128_0_0
abbrev basisBox : Rect S3x121 := Rect.unit (s := S3x121) ![0, 0] S3x121.size inb_S3x121_S3x121_0_0
abbrev outBox : Rect S256x128x121 := Rect.unit (s := S256x128x121) ![0, 0, 0] S256x128x121.size inb_S256x128x121_S256x128x121_0_0_0

/-- The output window's staging buffer after the body, from the four input blocks: the body's one store, of the
    quadratic form's payload, over the whole buffer. -/
def quadBlock (a c' d : Vec F S256x128 .f32) (basis : Vec F S3x121 .f32) : Vec F S256x128x121 .f32 :=
  View.canon [⟨outBox, k0_pay1 (View.ld a planeBox) (View.ld c' planeBox) (View.ld d planeBox) (View.ld basis basisBox)⟩]

/-- That one store covers the buffer. -/
theorem store_covers (p0 : Vec F S256x128x121 .f32) (y : S256x128x121.Idx) :
    ∃ pc ∈ ([⟨outBox, p0⟩] : List (View.Piece (Elt F) S256x128x121 .f32)), y ∈ pc.1.set :=
  View.cover_of_tiled [⟨outBox, p0⟩] S256x128x121.size (by rfl) y

/-! ## The body's triple -/

set_option maxHeartbeats 1000000 in
/-- The body on whole staging memrefs — the inputs' at read contents, the output's at anything — runs to the
    continuation with the inputs' as they were and the output's at `quadBlock` of them: four whole-block loads, the
    pure payload, a load of the output buffer whose value is dropped, and the whole-block store. -/
theorem body_triple (c : Dev nD) (E : Set ℕ) (i : grid0.Coords)
    (arg2 : Memref sig .tc .vmem S256x128 .f32) (harg2 : arg2.IsWhole) (arg3 : Memref sig .tc .vmem S256x128 .f32) (harg3 : arg3.IsWhole)
    (arg4 : Memref sig .tc .vmem S256x128 .f32) (harg4 : arg4.IsWhole) (arg5 : Memref sig .tc .vmem S3x121 .f32) (harg5 : arg5.IsWhole)
    (arg6 : Memref sig .tc .vmem S256x128x121 .f32) (harg6 : arg6.IsWhole)
    (x0 x1 x2 : Vec F S256x128 .f32) (x3 : Vec F S3x121 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (quadBlock x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

/-! ## The pipeline's proof data -/

/-- On core `c`: the arrays as the region finds them; after the body at point `t` each input's buffer still at
    its block and the output's at `quadBlock` of the four input blocks; the invariant the plain one (the scoped
    rest and the generator register, untouched); nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => quadBlock (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem left0 (c : Dev nD) (t : Fin cfg0.N) : (pdata m 0 c).after 0 t = blockAt m c 0 t := by dsimp only [pdata]
theorem left1 (c : Dev nD) (t : Fin cfg0.N) : (pdata m 0 c).after 1 t = blockAt m c 1 t := by dsimp only [pdata]
theorem left2 (c : Dev nD) (t : Fin cfg0.N) : (pdata m 0 c).after 2 t = blockAt m c 2 t := by dsimp only [pdata]
theorem left3 (c : Dev nD) (t : Fin cfg0.N) : (pdata m 0 c).after 3 t = blockAt m c 3 t := by dsimp only [pdata]
theorem left4 (c : Dev nD) (t : Fin cfg0.N) :
    (pdata m 0 c).after 4 t = quadBlock (blockAt m c 0 t) (blockAt m c 1 t) (blockAt m c 2 t) (blockAt m c 3 t) := by dsimp only [pdata]

theorem found0 (c : Dev nD) (t : Fin cfg0.N) (d) : (pdata m 0 c).before 0 t d = blockAt m c 0 t :=
  found0_of m (pdata m 0 c) (pdata_A m c 0) (left0 m c) t d
theorem found1 (c : Dev nD) (t : Fin cfg0.N) (d) : (pdata m 0 c).before 1 t d = blockAt m c 1 t :=
  found1_of m (pdata m 0 c) (pdata_A m c 1) (left1 m c) t d
theorem found2 (c : Dev nD) (t : Fin cfg0.N) (d) : (pdata m 0 c).before 2 t d = blockAt m c 2 t :=
  found2_of m (pdata m 0 c) (pdata_A m c 2) (left2 m c) t d
theorem found3 (c : Dev nD) (t : Fin cfg0.N) (d) : (pdata m 0 c).before 3 t d = blockAt m c 3 t :=
  found3_of m (pdata m 0 c) (pdata_A m c 3) (left3 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- The body at any point: the inputs' memrefs hold their blocks, so the triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  rw [show (pdata m 0 c).Φ t.succ = (pdata m 0 c).Φ t.castSucc from rfl,
    show (pdata m 0 c).owesAt () t.succ = (pdata m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final
    state has each array a window stages at what the library computes from the proof data, and every other
    unscoped buffer as the re-laying line leaves it. -/
theorem run_around : θ_run defs (onTc (τ := τ) (main (F := F))) (s₀ m ρ)
    (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := main_around m Variants.none) (hA := pdata_A m) (hΦ := fun _ _ => rfl)

/-- The frame: the program runs to the end, faults nowhere, and both argument arrays end as launched (no window
    stages either; no host line writes either). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_around m ρ)

end Cert.Kernel.Around

end
-- ==== Proof.KernelIdealAround.lean ====
/-
  The launch of the one pallas_call of this program, and the frame it gives.

  The program is three stretches: host lines that cut the two argument arrays into the three coefficient planes
  a, c, d (each [512,512]) and build the basis rows x1², x1·x2, x2² (stacked as [3,121]); one region over a
  2×4 grid whose point (i, j) reads the [256,128] blocks (i, j) of the three planes and the whole basis, and
  writes the [256,128,121] block (i, j, 0) of the result; one host line that re-lays the [512,512,121] result
  as [512,512,11,11].

  Stated here, for any float instance: what every array holds when the region is entered (`entry`), the block
  of each window at a grid point (`blockAt`), what the body leaves in the output window's buffer as ONE pure
  function of the four input blocks (`quadBlock`: its single whole-buffer store), the body's triple, the
  pipeline's proof data, and the run of the whole program around the region (`run_around`), from which the
  frame claim (`frame`) is read: no host line writes an argument array, before the region or after it.
-/
import proofs.«145979_j20779051778538_2_alg».proof.Proof.Gen.KernelIdeal.Launch
import proofs.«145979_j20779051778538_2_alg».proof.Proof.Gen.KernelIdeal.Skeleton
import proofs.«145979_j20779051778538_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- What core `c`'s buffers hold when the region is entered: the launch memory after the seventeen host lines
    that cut the planes and build the basis. -/
abbrev entry (c : Dev nD) : Valuation τ sig (Elt F) := StableHlo.after (List.flatten [hostOps0]) (fun b => m (c, b))
/-- The same, read at one TensorCore buffer. -/
abbrev entryAt (c : Dev nD) (b : Ref sig .tc) : Buf (Elt F) ((c : Thread nD τ).loc b) := entry m c (Proc.devRef .tc b)

/-- The host lines allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- The program is the host lines before the region, the region, and the re-laying line after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes no array a window stages: its one result is the re-laid [512,512,11,11] buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the first argument array: the region finds it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))
/-- Nor the second. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.binary_writes, StableHlo.nary_writes, StableHlo.reshape_writes, Finset.mem_singleton]
    repeat' apply And.intro
    all_goals exact StableHlo.devRef_ne_of_ne (by decide)))

/-- The line after the region does not write the first argument array either: it ends as launched. -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c
/-- Nor the second. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's current staging buffer holds its block at every point, whether the pipeline fetched it
    there or not (the basis is fetched once: its block index never moves), for any proof data over the entry
    arrays whose body leaves the block in place. One statement per input window. -/
theorem found0_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2_of {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem found3_of {c : Dev nD} (dat : Dat τ (Elt F) Unit ℕ (UR sig nD τ) ℕ cfg0 c) (hA : dat.A 3 = entryAt m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body reads and what it leaves -/

/-- The whole [256,128] plane block, the whole [3,121] basis, the whole [256,128,121] output block. -/
abbrev planeBox : Rect S256x128 := Rect.unit (s := S256x128) ![0, 0] S256x128.size inb_S256x128_S256x128_0_0
abbrev basisBox : Rect S3x121 := Rect.unit (s := S3x121) ![0, 0] S3x121.size inb_S3x121_S3x121_0_0
abbrev outBox : Rect S256x128x121 := Rect.unit (s := S256x128x121) ![0, 0, 0] S256x128x121.size inb_S256x128x121_S256x128x121_0_0_0

/-- The output window's staging buffer after the body, from the four input blocks: the body's one store, of the
    quadratic form's payload, over the whole buffer. -/
def quadBlock (a c' d : Vec F S256x128 .f32) (basis : Vec F S3x121 .f32) : Vec F S256x128x121 .f32 :=
  View.canon [⟨outBox, k0_pay1 (View.ld a planeBox) (View.ld c' planeBox) (View.ld d planeBox) (View.ld basis basisBox)⟩]

/-- That one store covers the buffer. -/
theorem store_covers (p0 : Vec F S256x128x121 .f32) (y : S256x128x121.Idx) :
    ∃ pc ∈ ([⟨outBox, p0⟩] : List (View.Piece (Elt F) S256x128x121 .f32)), y ∈ pc.1.set :=
  View.cover_of_tiled [⟨outBox, p0⟩] S256x128x121.size (by rfl) y

/-! ## The body's triple -/

set_option maxHeartbeats 1000000 in
/-- The body on whole staging memrefs — the inputs' at read contents, the output's at anything — runs to the
    continuation with the inputs' as they were and the output's at `quadBlock` of them: four whole-block loads, the
    pure payload, a load of the output buffer whose value is dropped, and the whole-block store. -/
theorem body_triple (c : Dev nD) (E : Set ℕ) (i : grid0.Coords)
    (arg2 : Memref sig .tc .vmem S256x128 .f32) (harg2 : arg2.IsWhole) (arg3 : Memref sig .tc .vmem S256x128 .f32) (harg3 : arg3.IsWhole)
    (arg4 : Memref sig .tc .vmem S256x128 .f32) (harg4 : arg4.IsWhole) (arg5 : Memref sig .tc .vmem S3x121 .f32) (harg5 : arg5.IsWhole)
    (arg6 : Memref sig .tc .vmem S256x128x121 .f32) (harg6 : arg6.IsWhole)
    (x0 x1 x2 : Vec F S256x128 .f32) (x3 : Vec F S3x121 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (quadBlock x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

/-! ## The pipeline's proof data -/

/-- On core `c`: the arrays as the region finds them; after the body at point `t` each input's buffer still at
    its block and the output's at `quadBlock` of the four input blocks; the invariant the plain one (the scoped
    rest and the generator register, untouched); nothing owed; full shares. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => quadBlock (blockAt m c 0 t) (blockAt m c 1 t) (blockAt m c 2 t) (blockAt m c 3 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem left0 (c : Dev nD) (t : Fin cfg0.N) : (pdata m 0 c).after 0 t = blockAt m c 0 t := by dsimp only [pdata]
theorem left1 (c : Dev nD) (t : Fin cfg0.N) : (pdata m 0 c).after 1 t = blockAt m c 1 t := by dsimp only [pdata]
theorem left2 (c : Dev nD) (t : Fin cfg0.N) : (pdata m 0 c).after 2 t = blockAt m c 2 t := by dsimp only [pdata]
theorem left3 (c : Dev nD) (t : Fin cfg0.N) : (pdata m 0 c).after 3 t = blockAt m c 3 t := by dsimp only [pdata]
theorem left4 (c : Dev nD) (t : Fin cfg0.N) :
    (pdata m 0 c).after 4 t = quadBlock (blockAt m c 0 t) (blockAt m c 1 t) (blockAt m c 2 t) (blockAt m c 3 t) := by dsimp only [pdata]

theorem found0 (c : Dev nD) (t : Fin cfg0.N) (d) : (pdata m 0 c).before 0 t d = blockAt m c 0 t :=
  found0_of m (pdata m 0 c) (pdata_A m c 0) (left0 m c) t d
theorem found1 (c : Dev nD) (t : Fin cfg0.N) (d) : (pdata m 0 c).before 1 t d = blockAt m c 1 t :=
  found1_of m (pdata m 0 c) (pdata_A m c 1) (left1 m c) t d
theorem found2 (c : Dev nD) (t : Fin cfg0.N) (d) : (pdata m 0 c).before 2 t d = blockAt m c 2 t :=
  found2_of m (pdata m 0 c) (pdata_A m c 2) (left2 m c) t d
theorem found3 (c : Dev nD) (t : Fin cfg0.N) (d) : (pdata m 0 c).before 3 t d = blockAt m c 3 t :=
  found3_of m (pdata m 0 c) (pdata_A m c 3) (left3 m c) t d

/-! ## The body obligation, at a generic point -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t))

/-- The body at any point: the inputs' memrefs hold their blocks, so the triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3]
  rw [show (pdata m 0 c).Φ t.succ = (pdata m 0 c).Φ t.castSucc from rfl,
    show (pdata m 0 c).owesAt () t.succ = (pdata m 0 c).owesAt () t.castSucc from rfl,
    left0, left1, left2, left3, left4]
  iintro ⟨HΦ, Ho, ⟨%d0, H0⟩, ⟨%d1, H1⟩, ⟨%d2, H2⟩, ⟨%d3, H3⟩, ⟨%d4, H4⟩⟩
  iapply (body_triple c Set.univ (grid0.coords t) _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final
    state has each array a window stages at what the library computes from the proof data, and every other
    unscoped buffer as the re-laying line leaves it. -/
theorem run_around : θ_run defs (onTc (τ := τ) (main (F := F))) (s₀ m ρ)
    (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := tail_sub) (hfresh := tail_fresh) (hkeep := tail_keeps)
    (hmain := main_around m Variants.none) (hA := pdata_A m) (hΦ := fun _ _ => rfl)

/-- The frame: the program runs to the end, faults nowhere, and both argument arrays end as launched (no window
    stages either; no host line writes either). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_around m ρ)

end Cert.KernelIdeal.Around

end
-- ==== Proof.Quad.lean ====
/-
  The mathematics of this certificate, with no program in sight.

  For one pair (o, i) the parameters are a, c, d (the raw log-diagonal, the off-diagonal and the other raw
  log-diagonal of a lower-triangular 2×2 factor L = [[eᵃ, 0], [c, eᵈ]]) and for one position k the point
  (x₁, x₂). The result is |L⁻¹ x|², the squared length of the solution b of L b = x.

  * `solved` computes it by forward substitution: b₁ = x₁ / eᵃ, b₂ = (x₂ − c·b₁) / eᵈ, then b₁² + b₂².
  * `expanded` computes it as a quadratic form in (x₁², x₁x₂, x₂²): with e₁ = e^(0−a), e₂ = e^(0−d) and
    p = c·e₁·e₂, the coefficients are e₁² + p², −2·p·e₂ and e₂².

  Over the reals the two agree: 1/eᵃ = e^(−a), so b₁ = x₁e₁ and b₂ = x₂e₂ − p·x₁, and squaring and adding gives
  the three coefficients. On the extended reals the step "expand the square" is distributivity, which fails at
  the infinities, so the law is stated for finite a, c, d, x₁, x₂ (`solved_eq_expanded`); then every
  intermediate is a real (eᵃ is a nonzero real) and the identity is the real one.
-/
import Idealize.ShloMosaic.PureOps.Ideal
import Idealize.ShloMosaic.PureOps.Ideal.Laws
import Idealize.ShloMosaic.Lib.ValueIdx

noncomputable section

namespace Cert.Quad

open Idealize.ShloMosaic Idealize.ShloMosaic.ValueIdx

/-- The pattern of `-2.0` denotes the real −2. -/
theorem ofBits_neg_two : Ideal.ofBits .f32 0xC0000000#32 = ((-2 : ℝ) : EReal) := by
  simp [Ideal.ofBits, Ideal.ieee, -EReal.coe_mul]; norm_num

/-- |L⁻¹x|² by forward substitution. -/
def solved (a c d x1 x2 : EReal) : EReal :=
  (Ideal.div x1 (Ideal.exp a)) * (Ideal.div x1 (Ideal.exp a))
    + (Ideal.div (x2 - c * Ideal.div x1 (Ideal.exp a)) (Ideal.exp d)) * (Ideal.div (x2 - c * Ideal.div x1 (Ideal.exp a)) (Ideal.exp d))

/-- |L⁻¹x|² as a quadratic form in (x₁², x₁x₂, x₂²), the negations spelt `0 − ·` and the factor −2 by its pattern. -/
def expanded (a c d x1 x2 : EReal) : EReal :=
  (Ideal.exp (Ideal.ofBits .f32 0x00000000#32 - a) * Ideal.exp (Ideal.ofBits .f32 0x00000000#32 - a)
      + (c * Ideal.exp (Ideal.ofBits .f32 0x00000000#32 - a) * Ideal.exp (Ideal.ofBits .f32 0x00000000#32 - d))
        * (c * Ideal.exp (Ideal.ofBits .f32 0x00000000#32 - a) * Ideal.exp (Ideal.ofBits .f32 0x00000000#32 - d))) * (x1 * x1)
    + Ideal.ofBits .f32 0xC0000000#32 * (c * Ideal.exp (Ideal.ofBits .f32 0x00000000#32 - a) * Ideal.exp (Ideal.ofBits .f32 0x00000000#32 - d))
        * Ideal.exp (Ideal.ofBits .f32 0x00000000#32 - d) * (x1 * x2)
    + Ideal.exp (Ideal.ofBits .f32 0x00000000#32 - d) * Ideal.exp (Ideal.ofBits .f32 0x00000000#32 - d) * (x2 * x2)

/-- The quadratic form itself, in three given monomials s, t, u (for s = x₁², t = x₁x₂, u = x₂² it is `expanded`). -/
def form (a c d s t u : EReal) : EReal :=
  (Ideal.exp (Ideal.ofBits .f32 0x00000000#32 - a) * Ideal.exp (Ideal.ofBits .f32 0x00000000#32 - a)
      + (c * Ideal.exp (Ideal.ofBits .f32 0x00000000#32 - a) * Ideal.exp (Ideal.ofBits .f32 0x00000000#32 - d))
        * (c * Ideal.exp (Ideal.ofBits .f32 0x00000000#32 - a) * Ideal.exp (Ideal.ofBits .f32 0x00000000#32 - d))) * s
    + Ideal.ofBits .f32 0xC0000000#32 * (c * Ideal.exp (Ideal.ofBits .f32 0x00000000#32 - a) * Ideal.exp (Ideal.ofBits .f32 0x00000000#32 - d))
        * Ideal.exp (Ideal.ofBits .f32 0x00000000#32 - d) * t
    + Ideal.exp (Ideal.ofBits .f32 0x00000000#32 - d) * Ideal.exp (Ideal.ofBits .f32 0x00000000#32 - d) * u

theorem expanded_eq_form (a c d x1 x2 : EReal) : expanded a c d x1 x2 = form a c d (x1 * x1) (x1 * x2) (x2 * x2) := rfl

/-- The real identity behind the law: with E = e^(−a) and G = e^(−d),
    (x₁E)² + ((x₂ − c·x₁E)·G)² = (E² + (cEG)²)·x₁² + (−2·(cEG)·G)·x₁x₂ + G²·x₂². -/
theorem real_law (a c d x1 x2 : ℝ) :
    x1 * (1 / Real.exp a) * (x1 * (1 / Real.exp a))
      + (x2 - c * (x1 * (1 / Real.exp a))) * (1 / Real.exp d) * ((x2 - c * (x1 * (1 / Real.exp a))) * (1 / Real.exp d))
    = (Real.exp (0 - a) * Real.exp (0 - a) + c * Real.exp (0 - a) * Real.exp (0 - d) * (c * Real.exp (0 - a) * Real.exp (0 - d))) * (x1 * x1)
      + -2 * (c * Real.exp (0 - a) * Real.exp (0 - d)) * Real.exp (0 - d) * (x1 * x2)
      + Real.exp (0 - d) * Real.exp (0 - d) * (x2 * x2) := by
  rw [zero_sub, zero_sub, Real.exp_neg, Real.exp_neg]
  have ha : Real.exp a ≠ 0 := Real.exp_ne_zero a
  have hd : Real.exp d ≠ 0 := Real.exp_ne_zero d
  field_simp
  ring

/-- On finite parameters and a finite point the two computations agree. -/
theorem solved_eq_expanded (a c d x1 x2 : ℝ) :
    solved (a : EReal) (c : EReal) (d : EReal) (x1 : EReal) (x2 : EReal) = expanded (a : EReal) (c : EReal) (d : EReal) (x1 : EReal) (x2 : EReal) := by
  unfold solved expanded
  rw [Ideal.ofBits_zero_f32, ofBits_neg_two]
  simp only [Ideal.exp_coe, Ideal.div_coe (Real.exp_ne_zero a), Ideal.div_coe (Real.exp_ne_zero d),
    ← EReal.coe_zero, ← EReal.coe_sub, ← EReal.coe_mul, ← EReal.coe_add]
  exact congrArg _ (real_law a c d x1 x2)

/-! ## Over the arrays -/

/-- The parameter array [512,512,2,2], the position array [2,121], the result before its last axis is re-laid. -/
abbrev Params : Shape := ⟨4, ![512, 512, 2, 2]⟩
abbrev Points : Shape := ⟨2, ![2, 121]⟩
abbrev Flat : Shape := ⟨3, ![512, 512, 121]⟩

/-- Entry (o, i, k) by forward substitution: a, c, d are entries (0,0), (1,0), (1,1) of pair (o, i)'s 2×2
    block and (x₁, x₂) is column k of the position array. -/
def solvedAt (P : Params.Idx → EReal) (X : Points.Idx → EReal) (o i : Fin 512) (k : Fin 121) : EReal :=
  solved (P (ix4 o i (0 : Fin 2) (0 : Fin 2))) (P (ix4 o i (1 : Fin 2) (0 : Fin 2))) (P (ix4 o i (1 : Fin 2) (1 : Fin 2)))
    (X (ix2 (0 : Fin 2) k)) (X (ix2 (1 : Fin 2) k))

/-- Entry (o, i, k) as the quadratic form. -/
def expandedAt (P : Params.Idx → EReal) (X : Points.Idx → EReal) (o i : Fin 512) (k : Fin 121) : EReal :=
  expanded (P (ix4 o i (0 : Fin 2) (0 : Fin 2))) (P (ix4 o i (1 : Fin 2) (0 : Fin 2))) (P (ix4 o i (1 : Fin 2) (1 : Fin 2)))
    (X (ix2 (0 : Fin 2) k)) (X (ix2 (1 : Fin 2) k))

/-- The whole [512,512,121] array, either way. -/
def solvedArr (P : Params.Idx → EReal) (X : Points.Idx → EReal) : Flat.Idx → EReal := fun j => solvedAt P X (j 0) (j 1) (j 2)
def expandedArr (P : Params.Idx → EReal) (X : Points.Idx → EReal) : Flat.Idx → EReal := fun j => expandedAt P X (j 0) (j 1) (j 2)

/-- On arrays of finite entries the two arrays are one. -/
theorem solvedArr_eq_expandedArr (P : Params.Idx → EReal) (X : Points.Idx → EReal)
    (hP : ∀ j, ∃ r : ℝ, P j = (r : EReal)) (hX : ∀ j, ∃ r : ℝ, X j = (r : EReal)) :
    solvedArr P X = expandedArr P X := by
  funext j
  unfold solvedArr expandedArr solvedAt expandedAt
  obtain ⟨a, ha⟩ := hP (ix4 (j 0) (j 1) (0 : Fin 2) (0 : Fin 2))
  obtain ⟨c, hc⟩ := hP (ix4 (j 0) (j 1) (1 : Fin 2) (0 : Fin 2))
  obtain ⟨d, hd⟩ := hP (ix4 (j 0) (j 1) (1 : Fin 2) (1 : Fin 2))
  obtain ⟨x1, h1⟩ := hX (ix2 (0 : Fin 2) (j 2))
  obtain ⟨x2, h2⟩ := hX (ix2 (1 : Fin 2) (j 2))
  rw [ha, hc, hd, h1, h2]
  exact solved_eq_expanded a c d x1 x2

end Cert.Quad

end
-- ==== Proof.KernelIdealBlock.lean ====
/-
  The body's payload read at one entry.

  The payload is a pure function of the four loaded blocks: the three [256,128] planes a, c, d and the [3,121]
  basis. At entry (p, q, k) of the [256,128,121] block it is the quadratic form with parameters a(p,q), c(p,q),
  d(p,q) in the three monomials basis(0,k), basis(1,k), basis(2,k): each coefficient is computed on the plane,
  given a unit third axis and repeated along k; each basis row is cut out of the stack, given two unit leading
  axes and repeated along (p, q); the three products are added.
-/
import proofs.«145979_j20779051778538_2_alg».proof.Proof.Gen.KernelIdeal.Skeleton
import proofs.«145979_j20779051778538_2_alg».proof.Proof.Quad
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx Cert.Quad

variable {α : Type}

/-- A plane given a unit third axis and repeated along it, read at (p, q, k), is the plane at (p, q). -/
theorem lift_plane (u : S256x128.Idx → α) (h1 : S256x128.ShapeCasts S256x128x1) (h2 : S256x128x1.Broadcasts S256x128x121)
    (p : Fin 256) (q : Fin 128) (k : Fin 121) :
    broadcastTo S256x128x121 (shapeCast S256x128x1 u h1) h2 (ix3 p q k) = u (ix2 p q) := by
  rw [broadcastTo_apply _ h2 (ix3 p q k) (ix3 p q (0 : Fin 1)) (fun a => match a with
    | ⟨0, _⟩ => by show p.val = if (256 : Nat) = 1 then 0 else p.val; rw [if_neg (by decide)]
    | ⟨1, _⟩ => by show q.val = if (128 : Nat) = 1 then 0 else q.val; rw [if_neg (by decide)]
    | ⟨2, _⟩ => by show 0 = if (1 : Nat) = 1 then 0 else k.val; rw [if_pos rfl])]
  exact shapeCast_apply u h1 (ix3 p q (0 : Fin 1)) (ix2 p q) (by
    rw [Shape.rowMajor_val_two, Shape.rowMajor_val_three]; show p.val * 128 + q.val = (p.val * 128 + q.val) * 1 + 0; omega)

/-- A row given two unit leading axes and repeated along them, read at (p, q, k), is the row at k. -/
theorem lift_row (r : S121.Idx → α) (h1 : S121.ShapeCasts S1x1x121) (h2 : S1x1x121.Broadcasts S256x128x121)
    (p : Fin 256) (q : Fin 128) (k : Fin 121) :
    broadcastTo S256x128x121 (shapeCast S1x1x121 r h1) h2 (ix3 p q k) = r (ix1 k) := by
  rw [broadcastTo_apply _ h2 (ix3 p q k) (ix3 (0 : Fin 1) (0 : Fin 1) k) (fun a => match a with
    | ⟨0, _⟩ => by show 0 = if (1 : Nat) = 1 then 0 else p.val; rw [if_pos rfl]
    | ⟨1, _⟩ => by show 0 = if (1 : Nat) = 1 then 0 else q.val; rw [if_pos rfl]
    | ⟨2, _⟩ => by show k.val = if (121 : Nat) = 1 then 0 else k.val; rw [if_neg (by decide)])]
  exact shapeCast_apply r h1 (ix3 (0 : Fin 1) (0 : Fin 1) k) (ix1 k) (by
    rw [Shape.rowMajor_val_one, Shape.rowMajor_val_three]; show k.val = (0 * 1 + 0) * 121 + k.val; omega)

/-- Row ρ of the three-row stack, cut out and flattened, read at k, is the stack at (ρ, k). -/
theorem stack_row (B : S3x121.Idx → α) (r : Nat) (hr : r < 3)
    (hs : S3x121.Slices ![r, 0] S1x121) (hc : S1x121.ShapeCasts S121) (k : Fin 121) :
    shapeCast S121 (extractStridedSlice S1x121 ![r, 0] B hs) hc (ix1 k) = B (ix2 (⟨r, hr⟩ : Fin 3) k) := by
  rw [shapeCast_apply _ hc (ix1 k) (ix2 (0 : Fin 1) k) (by
    rw [Shape.rowMajor_val_two, Shape.rowMajor_val_one]; show 0 * 121 + k.val = k.val; omega)]
  exact extractStridedSlice_apply _ B hs (ix2 (0 : Fin 1) k) (ix2 (⟨r, hr⟩ : Fin 3) k) (fun a => match a with
    | ⟨0, _⟩ => by show r = r + 0; omega
    | ⟨1, _⟩ => by show k.val = 0 + k.val; omega)

/-- The payload at entry (p, q, k) is the quadratic form there. -/
theorem payload_at (a c' d : Vec Ideal S256x128 .f32) (basis : Vec Ideal S3x121 .f32) (p : Fin 256) (q : Fin 128) (k : Fin 121) :
    k0_pay1 (F := Ideal) a c' d basis (ix3 p q k)
      = form (a (ix2 p q)) (c' (ix2 p q)) (d (ix2 p q)) (basis (ix2 (0 : Fin 3) k)) (basis (ix2 (1 : Fin 3) k)) (basis (ix2 (2 : Fin 3) k)) := by
  unfold k0_pay1
  simp only [addf_apply, mulf_apply, lift_plane, lift_row]
  simp only [shapeCast_self]
  rw [stack_row basis 0 (by decide), stack_row basis 1 (by decide), stack_row basis 2 (by decide)]
  rfl

end Cert.KernelIdeal.Block

end
-- ==== Proof.KernelIdealEntry.lean ====
/-
  What the region finds in its four input arrays, entry by entry.

  The three coefficient planes are entries (0,0), (1,0) and (1,1) of every pair's 2×2 block: a slice of the
  parameter array to extent 1 on both trailing axes, then those two axes dropped. The basis is three rows stacked:
  x₁·x₁, x₁·x₂ and x₂·x₂, where x₁ and x₂ are rows 0 and 1 of the position array, each cut out and flattened; each
  product is given a unit leading axis before the three are stacked along it.
-/
import proofs.«145979_j20779051778538_2_alg».proof.Proof.KernelIdealAround
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Cert.KernelIdeal.Around
open Idealize.ShloMosaic Idealize.ShloMosaic.TcCoe Idealize.SL.Sem Idealize.ShloMosaic.StableHlo Idealize.ShloMosaic.ValueIdx

/-! ## The host lines as functions of the argument arrays -/

/-- Entry (r, s) of every pair's 2×2 block, as a [512,512] plane. -/
def planeOf (P : S512x512x2x2.Idx → EReal) (r s : Nat) (hs : S512x512x2x2.Slices ![0, 0, r, s] S512x512x1x1) : S512x512.Idx → EReal :=
  shapeCast S512x512 (extractStridedSlice S512x512x1x1 ![0, 0, r, s] P hs) shapeCasts_S512x512x1x1_S512x512

/-- Row r of the position array, flattened. -/
def rowOf (X : S2x121.Idx → EReal) (r : Nat) (hs : S2x121.Slices ![r, 0] S1x121) : S121.Idx → EReal :=
  shapeCast S121 (extractStridedSlice S1x121 ![r, 0] X hs) shapeCasts_S1x121_S121

/-- The product of rows r and r' of the position array, given a unit leading axis. -/
def monomial (X : S2x121.Idx → EReal) (r r' : Nat) (hs : S2x121.Slices ![r, 0] S1x121) (hs' : S2x121.Slices ![r', 0] S1x121) : S1x121.Idx → EReal :=
  broadcastInDim S1x121 ![1] bcast_S121_S1x121_1 (mulf (F := Ideal) (φ := .f32) (rowOf X r hs) (rowOf X r' hs'))

/-- The three monomial rows x₁², x₁x₂, x₂², stacked. -/
def hostBasis (X : S2x121.Idx → EReal) : S3x121.Idx → EReal :=
  concatenate S3x121 0
    [⟨S1x121, monomial X 0 0 slices_S2x121_S1x121_0_0 slices_S2x121_S1x121_0_0⟩,
     ⟨S1x121, monomial X 0 1 slices_S2x121_S1x121_0_0 slices_S2x121_S1x121_1_0⟩,
     ⟨S1x121, monomial X 1 1 slices_S2x121_S1x121_1_0 slices_S2x121_S1x121_1_0⟩]
    concatenates_S1x121_S1x121_S1x121_S3x121_d0

/-! ## Read at an entry -/

theorem planeOf_at (P : S512x512x2x2.Idx → EReal) (r s : Nat) (hr : r < 2) (hs' : s < 2)
    (hs : S512x512x2x2.Slices ![0, 0, r, s] S512x512x1x1) (o i : Fin 512) :
    planeOf P r s hs (ix2 o i) = P (ix4 o i (⟨r, hr⟩ : Fin 2) (⟨s, hs'⟩ : Fin 2)) := by
  unfold planeOf
  rw [shapeCast_apply _ shapeCasts_S512x512x1x1_S512x512 (ix2 o i) (ix4 o i (0 : Fin 1) (0 : Fin 1)) (by
    rw [Shape.rowMajor_val_four, Shape.rowMajor_val_two]; show ((o.val * 512 + i.val) * 1 + 0) * 1 + 0 = o.val * 512 + i.val; omega)]
  exact extractStridedSlice_apply _ P hs (ix4 o i (0 : Fin 1) (0 : Fin 1)) (ix4 o i (⟨r, hr⟩ : Fin 2) (⟨s, hs'⟩ : Fin 2)) (fun a => match a with
    | ⟨0, _⟩ => by show o.val = 0 + o.val; omega
    | ⟨1, _⟩ => by show i.val = 0 + i.val; omega
    | ⟨2, _⟩ => by show r = r + 0; omega
    | ⟨3, _⟩ => by show s = s + 0; omega)

theorem rowOf_at (X : S2x121.Idx → EReal) (r : Nat) (hr : r < 2) (hs : S2x121.Slices ![r, 0] S1x121) (k : Fin 121) :
    rowOf X r hs (ix1 k) = X (ix2 (⟨r, hr⟩ : Fin 2) k) := by
  unfold rowOf
  rw [shapeCast_apply _ shapeCasts_S1x121_S121 (ix1 k) (ix2 (0 : Fin 1) k) (by
    rw [Shape.rowMajor_val_two, Shape.rowMajor_val_one]; show 0 * 121 + k.val = k.val; omega)]
  exact extractStridedSlice_apply _ X hs (ix2 (0 : Fin 1) k) (ix2 (⟨r, hr⟩ : Fin 2) k) (fun a => match a with
    | ⟨0, _⟩ => by show r = r + 0; omega
    | ⟨1, _⟩ => by show k.val = 0 + k.val; omega)

/-- A row given a unit leading axis, read at (0, k), is the row at k. -/
theorem unitRow_at (v : S121.Idx → EReal) (k : Fin 121) :
    broadcastInDim S1x121 ![1] bcast_S121_S1x121_1 v (ix2 (0 : Fin 1) k) = v (ix1 k) :=
  broadcastInDim_apply _ bcast_S121_S1x121_1 v (ix2 (0 : Fin 1) k) (ix1 k) (fun a => match a with
    | ⟨0, _⟩ => by show k.val = if (121 : Nat) = 1 then 0 else k.val; rw [if_neg (by decide)])

/-- A monomial row at (0, k) is the product of the two position rows at k. -/
theorem monomial_at (X : S2x121.Idx → EReal) (r r' : Nat) (hr : r < 2) (hr' : r' < 2)
    (hs : S2x121.Slices ![r, 0] S1x121) (hs' : S2x121.Slices ![r', 0] S1x121) (k : Fin 121) :
    monomial X r r' hs hs' (ix2 (0 : Fin 1) k) = X (ix2 (⟨r, hr⟩ : Fin 2) k) * X (ix2 (⟨r', hr'⟩ : Fin 2) k) := by
  unfold monomial
  rw [unitRow_at, mulf_apply, rowOf_at X r hr, rowOf_at X r' hr']

/-- Row n of the stack at column k is piece n at (0, k). -/
theorem stack_piece (x0 x1 x2 : S1x121.Idx → EReal) (n : Nat) (hn : n < 3) (k : Fin 121) :
    concatenate S3x121 0 [⟨S1x121, x0⟩, ⟨S1x121, x1⟩, ⟨S1x121, x2⟩] concatenates_S1x121_S1x121_S1x121_S3x121_d0 (ix2 (⟨n, hn⟩ : Fin 3) k)
      = ([x0, x1, x2][n]'(by simpa using hn)) (ix2 (0 : Fin 1) k) := by
  match n, hn with
  | 0, _ =>
    exact concatenate_apply_piece (t := S3x121) (0 : Fin S3x121.rank) [⟨S1x121, x0⟩, ⟨S1x121, x1⟩, ⟨S1x121, x2⟩] concatenates_S1x121_S1x121_S1x121_S3x121_d0
      (ix2 (⟨0, by decide⟩ : Fin 3) k) 0 (by show 0 < 3; omega) S1x121 x0 rfl rfl 0 rfl (ix2 (0 : Fin 1) k)
      (fun b hb => match b, hb with
        | ⟨0, _⟩, hb => absurd rfl hb
        | ⟨1, _⟩, _ => rfl) (by show 0 + 0 = 0; omega)
  | 1, _ =>
    exact concatenate_apply_piece (t := S3x121) (0 : Fin S3x121.rank) [⟨S1x121, x0⟩, ⟨S1x121, x1⟩, ⟨S1x121, x2⟩] concatenates_S1x121_S1x121_S1x121_S3x121_d0
      (ix2 (⟨1, by decide⟩ : Fin 3) k) 1 (by show 1 < 3; omega) S1x121 x1 rfl rfl 1 rfl (ix2 (0 : Fin 1) k)
      (fun b hb => match b, hb with
        | ⟨0, _⟩, hb => absurd rfl hb
        | ⟨1, _⟩, _ => rfl) (by show 1 + 0 = 1; omega)
  | 2, _ =>
    exact concatenate_apply_piece (t := S3x121) (0 : Fin S3x121.rank) [⟨S1x121, x0⟩, ⟨S1x121, x1⟩, ⟨S1x121, x2⟩] concatenates_S1x121_S1x121_S1x121_S3x121_d0
      (ix2 (⟨2, by decide⟩ : Fin 3) k) 2 (by show 2 < 3; omega) S1x121 x2 rfl rfl 2 rfl (ix2 (0 : Fin 1) k)
      (fun b hb => match b, hb with
        | ⟨0, _⟩, hb => absurd rfl hb
        | ⟨1, _⟩, _ => rfl) (by show 2 + 0 = 2; omega)

theorem hostBasis_row0 (X : S2x121.Idx → EReal) (k : Fin 121) :
    hostBasis X (ix2 (0 : Fin 3) k) = X (ix2 (0 : Fin 2) k) * X (ix2 (0 : Fin 2) k) :=
  (stack_piece _ _ _ 0 (by decide) k).trans (monomial_at X 0 0 (by decide) (by decide) _ _ k)

theorem hostBasis_row1 (X : S2x121.Idx → EReal) (k : Fin 121) :
    hostBasis X (ix2 (1 : Fin 3) k) = X (ix2 (0 : Fin 2) k) * X (ix2 (1 : Fin 2) k) :=
  (stack_piece _ _ _ 1 (by decide) k).trans (monomial_at X 0 1 (by decide) (by decide) _ _ k)

theorem hostBasis_row2 (X : S2x121.Idx → EReal) (k : Fin 121) :
    hostBasis X (ix2 (2 : Fin 3) k) = X (ix2 (1 : Fin 2) k) * X (ix2 (1 : Fin 2) k) :=
  (stack_piece _ _ _ 2 (by decide) k).trans (monomial_at X 1 1 (by decide) (by decide) _ _ k)

/-! ## The region's input arrays are those functions of the argument arrays -/

variable (m : (ℓ : Loc nD τ sig) → Buf (Elt Ideal) ℓ)

theorem entry_a (c : Dev nD) : (entryAt m c main_v1 : S512x512.Idx → EReal)
    = planeOf (m ((c : Thread nD τ).loc main_arg0)) 0 0 slices_S512x512x2x2_S512x512x1x1_0_0_0_0 := by
  show StableHlo.after hostOps0 (fun b => m (c, b)) (Proc.devRef .tc main_v1) = _
  after_results
  rfl

theorem entry_c (c : Dev nD) : (entryAt m c main_v3 : S512x512.Idx → EReal)
    = planeOf (m ((c : Thread nD τ).loc main_arg0)) 1 0 slices_S512x512x2x2_S512x512x1x1_0_0_1_0 := by
  show StableHlo.after hostOps0 (fun b => m (c, b)) (Proc.devRef .tc main_v3) = _
  after_results
  rfl

theorem entry_d (c : Dev nD) : (entryAt m c main_v5 : S512x512.Idx → EReal)
    = planeOf (m ((c : Thread nD τ).loc main_arg0)) 1 1 slices_S512x512x2x2_S512x512x1x1_0_0_1_1 := by
  show StableHlo.after hostOps0 (fun b => m (c, b)) (Proc.devRef .tc main_v5) = _
  after_results
  rfl

theorem entry_basis (c : Dev nD) : (entryAt m c main_v16 : S3x121.Idx → EReal) = hostBasis (m ((c : Thread nD τ).loc main_arg1)) := by
  show StableHlo.after hostOps0 (fun b => m (c, b)) (Proc.devRef .tc main_v16) = _
  simp only [after_cons, after_nil]
  rw [nary_result]
  show concatenate S3x121 0 [⟨S1x121, HloOp.result _ _ (Proc.devRef .tc main_v13)⟩, ⟨S1x121, HloOp.result _ _ (Proc.devRef .tc main_v14)⟩,
    ⟨S1x121, HloOp.result _ _ (Proc.devRef .tc main_v15)⟩] _ = _
  repeat (first
    | rw [unary_result] | rw [binary_result] | rw [reshape_result]
    | (rw [unary_result_ne]; rotate_left; decide)
    | (rw [binary_result_ne]; rotate_left; decide)
    | (rw [reshape_result_ne]; rotate_left; decide))
  rfl

end Cert.KernelIdeal.Entry

end
-- ==== Proof.KernelIdealWhole.lean ====
/-
  From what one grid point writes to what the program returns.

  Grid point t = (i, j) writes block (i, j, 0) of the [512,512,121] result, and that block is the restriction of
  ONE function of the region's four input arrays (`formArr`): entry (o, ι, k) is the quadratic form with the three
  planes read at (o, ι) and the three basis rows read at k. This holds because the three plane windows sit at the
  output's block index on the two leading axes, and the basis window and the output's last axis never move. The
  eight blocks tile the result, so after the last point the whole array is `formArr`; read through the host lines
  before the region it is `Quad.expandedArr` of the two argument arrays; the line after the region re-lays its
  last axis as 11×11.
-/
import proofs.«145979_j20779051778538_2_alg».proof.Proof.KernelIdealAround
import proofs.«145979_j20779051778538_2_alg».proof.Proof.KernelIdealBlock
import proofs.«145979_j20779051778538_2_alg».proof.Proof.KernelIdealEntry
import proofs.«145979_j20779051778538_2_alg».proof.Proof.Quad
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Cert.KernelIdeal.Around Cert.KernelIdeal.Block Cert.KernelIdeal.Entry Cert.Quad
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The region's result as one function of its four input arrays. -/
def formArr (A C D : S512x512.Idx → EReal) (B : S3x121.Idx → EReal) : S512x512x121.Idx → EReal := fun j =>
  form (A (ix2 (j 0) (j 1))) (C (ix2 (j 0) (j 1))) (D (ix2 (j 0) (j 1)))
    (B (ix2 (0 : Fin 3) (j 2))) (B (ix2 (1 : Fin 3) (j 2))) (B (ix2 (2 : Fin 3) (j 2)))

/-- Where the windows sit at each grid point, decided over the eight points: the planes at the output's block on
    the two leading axes, the basis and the output's last axis at block 0, the output's block within 2×4. -/
theorem point_blocks : ∀ t : Fin cfg0.N,
    win0_0.index t (0 : Fin 2) = win0_4.index t (0 : Fin 3) ∧ win0_0.index t (1 : Fin 2) = win0_4.index t (1 : Fin 3)
    ∧ win0_1.index t (0 : Fin 2) = win0_4.index t (0 : Fin 3) ∧ win0_1.index t (1 : Fin 2) = win0_4.index t (1 : Fin 3)
    ∧ win0_2.index t (0 : Fin 2) = win0_4.index t (0 : Fin 3) ∧ win0_2.index t (1 : Fin 2) = win0_4.index t (1 : Fin 3)
    ∧ win0_3.index t (0 : Fin 2) = 0 ∧ win0_3.index t (1 : Fin 2) = 0
    ∧ win0_4.index t (2 : Fin 3) = 0 ∧ win0_4.index t (0 : Fin 3) ≤ 1 ∧ win0_4.index t (1 : Fin 3) ≤ 3 :=
  (by decide +kernel : ∀ t : Fin grid0.N, _)

/-- Every block of the 2×4 tiling is some point's. -/
theorem every_block : ∀ (q0 : Fin 2) (q1 : Fin 4), ∃ t : Fin cfg0.N, win0_4.index t = ![q0.val, q1.val, 0] :=
  (by decide +kernel : ∀ (q0 : Fin 2) (q1 : Fin 4), ∃ t : Fin grid0.N, win0_4.index t = ![q0.val, q1.val, 0])

/-- What point t writes back is block t of `formArr` of the region's input arrays. -/
theorem written_block (c : Dev nD) (t : Fin cfg0.N) :
    (pdata m 0 c).flushed 4 t = ((cfg0.win 4).blk t).view.read (Elt Ideal)
      (formArr (entryAt m c main_v1) (entryAt m c main_v3) (entryAt m c main_v5) (entryAt m c main_v16)) := by
  show (cfg0.win 4).cut (grid0.coords t) ((pdata m 0 c).after 4 t) = _
  rw [left4]
  unfold quadBlock
  rw [View.canon_unit_zero zero3]
  simp only [View.ld_unit_zero (S := S256x128) zero2, View.ld_unit_zero (S := S3x121) zero2]
  obtain ⟨e00, e01, e10, e11, e20, e21, e30, e31, e42, b0, b1⟩ := point_blocks t
  funext y
  obtain ⟨p, q, k, rfl⟩ : ∃ (p : Fin 256) (q : Fin 128) (k : Fin 121), y = ix3 p q k := ⟨y 0, y 1, y 2, eq_ix3 y⟩
  refine (payload_at (blockAt m c 0 t) (blockAt m c 1 t) (blockAt m c 2 t) (blockAt m c 3 t) p q k).trans ?_
  have hp := p.isLt; have hq := q.isLt; have hk := k.isLt
  have h0 : ((cfg0.win 0).blk t).view.emb (ix2 p q)
      = ix2 ((((cfg0.win 4).blk t).view.emb (ix3 p q k)) 0) ((((cfg0.win 4).blk t).view.emb (ix3 p q k)) 1) := by
    funext a; apply Fin.ext
    match a with
    | ⟨0, _⟩ => show win0_0.index t (0 : Fin 2) * 256 + 1 * p.val = win0_4.index t (0 : Fin 3) * 256 + 1 * p.val; omega
    | ⟨1, _⟩ => show win0_0.index t (1 : Fin 2) * 128 + 1 * q.val = win0_4.index t (1 : Fin 3) * 128 + 1 * q.val; omega
  have h1 : ((cfg0.win 1).blk t).view.emb (ix2 p q)
      = ix2 ((((cfg0.win 4).blk t).view.emb (ix3 p q k)) 0) ((((cfg0.win 4).blk t).view.emb (ix3 p q k)) 1) := by
    funext a; apply Fin.ext
    match a with
    | ⟨0, _⟩ => show win0_1.index t (0 : Fin 2) * 256 + 1 * p.val = win0_4.index t (0 : Fin 3) * 256 + 1 * p.val; omega
    | ⟨1, _⟩ => show win0_1.index t (1 : Fin 2) * 128 + 1 * q.val = win0_4.index t (1 : Fin 3) * 128 + 1 * q.val; omega
  have h2 : ((cfg0.win 2).blk t).view.emb (ix2 p q)
      = ix2 ((((cfg0.win 4).blk t).view.emb (ix3 p q k)) 0) ((((cfg0.win 4).blk t).view.emb (ix3 p q k)) 1) := by
    funext a; apply Fin.ext
    match a with
    | ⟨0, _⟩ => show win0_2.index t (0 : Fin 2) * 256 + 1 * p.val = win0_4.index t (0 : Fin 3) * 256 + 1 * p.val; omega
    | ⟨1, _⟩ => show win0_2.index t (1 : Fin 2) * 128 + 1 * q.val = win0_4.index t (1 : Fin 3) * 128 + 1 * q.val; omega
  have h3 : ∀ (r : Fin 3), ((cfg0.win 3).blk t).view.emb (ix2 r k)
      = ix2 r ((((cfg0.win 4).blk t).view.emb (ix3 p q k)) 2) := by
    intro r
    have hr := r.isLt
    funext a; apply Fin.ext
    match a with
    | ⟨0, _⟩ => show win0_3.index t (0 : Fin 2) * 3 + 1 * r.val = r.val; omega
    | ⟨1, _⟩ => show win0_3.index t (1 : Fin 2) * 121 + 1 * k.val = win0_4.index t (2 : Fin 3) * 121 + 1 * k.val; omega
  show form (entryAt m c main_v1 (((cfg0.win 0).blk t).view.emb (ix2 p q))) (entryAt m c main_v3 (((cfg0.win 1).blk t).view.emb (ix2 p q)))
      (entryAt m c main_v5 (((cfg0.win 2).blk t).view.emb (ix2 p q)))
      (entryAt m c main_v16 (((cfg0.win 3).blk t).view.emb (ix2 (0 : Fin 3) k))) (entryAt m c main_v16 (((cfg0.win 3).blk t).view.emb (ix2 (1 : Fin 3) k)))
      (entryAt m c main_v16 (((cfg0.win 3).blk t).view.emb (ix2 (2 : Fin 3) k)))
    = formArr (entryAt m c main_v1) (entryAt m c main_v3) (entryAt m c main_v5) (entryAt m c main_v16) (((cfg0.win 4).blk t).view.emb (ix3 p q k))
  rw [h0, h1, h2, h3 0, h3 1, h3 2]
  rfl

/-- An index of the result lies in point t's block iff each coordinate lies in the block's range on its axis. -/
theorem mem_block (t : Fin cfg0.N) (i : S512x512x121.Idx) :
    i ∈ ((cfg0.win 4).blk t).view.set ↔ ∀ a : Fin 3, win0_4.index t a * S256x128x121.size a ≤ (i a).val ∧ (i a).val < win0_4.index t a * S256x128x121.size a + S256x128x121.size a := by
  show i ∈ ((View.whole main_v17).slice (win0_4.rect t)).set ↔ _
  rw [View.set_slice_whole, Rect.mem_set_unit]
  exact Iff.rfl

/-- The eight blocks tile the result: index (o, ι, k) lies in the block of the point at (o / 256, ι / 128). -/
theorem tiled (i : S512x512x121.Idx) : ∃ t : Fin cfg0.N, (cfg0.win 4).flush t = true ∧ i ∈ ((cfg0.win 4).blk t).view.set := by
  have hi0 : (i 0).val < 512 := (i 0).isLt
  have hi1 : (i 1).val < 512 := (i 1).isLt
  have hi2 : (i 2).val < 121 := (i 2).isLt
  obtain ⟨t, ht⟩ := every_block ⟨(i 0).val / 256, by omega⟩ ⟨(i 1).val / 128, by omega⟩
  have q0 : win0_4.index t (0 : Fin 3) = (i 0).val / 256 := congrFun ht 0
  have q1 : win0_4.index t (1 : Fin 3) = (i 1).val / 128 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 256 ≤ (i 0).val ∧ (i 0).val < win0_4.index t (0 : Fin 3) * 256 + 256; omega
  | ⟨1, _⟩ => show win0_4.index t (1 : Fin 3) * 128 ≤ (i 1).val ∧ (i 1).val < win0_4.index t (1 : Fin 3) * 128 + 128; omega
  | ⟨2, _⟩ => show win0_4.index t (2 : Fin 3) * 121 ≤ (i 2).val ∧ (i 2).val < win0_4.index t (2 : Fin 3) * 121 + 121; omega

/-- After the last point the region's result is `formArr` of its input arrays. -/
theorem region_result (c : Dev nD) :
    (pdata m 0 c).arrAt 4 cfg0.N = formArr (entryAt m c main_v1) (entryAt m c main_v3) (entryAt m c main_v5) (entryAt m c main_v16) :=
  (pdata m 0 c).arrAt_eq_of_cover 4 _ (fun t _ => written_block m c t) tiled

/-- Read through the host lines before the region, that is the quadratic form of the two argument arrays. -/
theorem formArr_entry (c : Dev nD) :
    formArr (entryAt m c main_v1) (entryAt m c main_v3) (entryAt m c main_v5) (entryAt m c main_v16)
      = expandedArr (m ((c : Thread nD τ).loc main_arg0)) (m ((c : Thread nD τ).loc main_arg1)) := by
  funext j
  obtain ⟨o, ι, k, rfl⟩ : ∃ (o ι : Fin 512) (k : Fin 121), j = ix3 o ι k := ⟨j 0, j 1, j 2, eq_ix3 j⟩
  show form (entryAt m c main_v1 (ix2 o ι)) (entryAt m c main_v3 (ix2 o ι)) (entryAt m c main_v5 (ix2 o ι))
      (entryAt m c main_v16 (ix2 (0 : Fin 3) k)) (entryAt m c main_v16 (ix2 (1 : Fin 3) k)) (entryAt m c main_v16 (ix2 (2 : Fin 3) k))
    = expandedAt (m ((c : Thread nD τ).loc main_arg0)) (m ((c : Thread nD τ).loc main_arg1)) o ι k
  rw [entry_a, entry_c, entry_d, entry_basis,
    planeOf_at _ 0 0 (by decide) (by decide), planeOf_at _ 1 0 (by decide) (by decide), planeOf_at _ 1 1 (by decide) (by decide),
    hostBasis_row0, hostBasis_row1, hostBasis_row2]
  unfold expandedAt
  rw [expanded_eq_form]
  rfl

/-- The program's result: the quadratic form of the argument arrays with its last axis re-laid as 11×11. -/
theorem program_result (c : Dev nD) :
    Pipeline.afterTail₀ cfgs (pdata m) 0 (entry m) [hostOps1] c main_v18
      = shapeCast S512x512x11x11 (expandedArr (m ((c : Thread nD τ).loc main_arg0)) (m ((c : Thread nD τ).loc main_arg1))) shapeCasts_S512x512x121_S512x512x11x11 := by
  unfold Pipeline.afterTail₀
  show StableHlo.after hostOps1 _ (Proc.devRef .tc main_v18) = _
  after_results
  rw [show Pipeline.withArrays (cfgs 0).spec c (entry m c) (fun w => (pdata m 0 c).arrAt w (cfgs 0).N) (Proc.devRef .tc main_v17)
      = expandedArr (m ((c : Thread nD τ).loc main_arg0)) (m ((c : Thread nD τ).loc main_arg1)) from
    (Pipeline.withArrays_arr spec0 launch0.win.arr_inj c _ _ 4).trans ((region_result m c).trans (formArr_entry m c))]
  rfl

/-- The run, read: the result buffer ends at that array and both argument arrays end as launched. -/
theorem run : θ_run defs (onTc (τ := τ) (main (F := Ideal))) ⟨m, fun _ => 0, ρ⟩ fun r => ∀ c : Dev nD,
      r.2.mem ((c.tc : Thread nD τ).loc main_v18)
        = shapeCast S512x512x11x11 (expandedArr (m ((c : Thread nD τ).loc main_arg0)) (m ((c : Thread nD τ).loc main_arg1))) shapeCasts_S512x512x121_S512x512x11x11
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (program_result m c),
     ((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_around m ρ)

end Cert.KernelIdeal.Whole

end
-- ==== Proof.RefSolved.lean ====
/-
  The reference program computes forward substitution.

  Its last stage before the re-laying line, read at entry (o, i, k), is b₁² + b₂² with b₁ = x₁ / eᵃ and
  b₂ = (x₂ − c·b₁) / eᵈ, where a, c, d are entries (0,0), (1,0), (1,1) of pair (o, i)'s 2×2 block — each reached
  through a slice, a drop of the two unit axes, and two broadcasts along k — and x₁, x₂ are rows 0 and 1 of the
  position array at column k, each reached through a slice, a drop of the unit axis and two broadcasts along
  (o, i). The five index equations say exactly that; the arithmetic is then `Quad.solved` by unfolding.
-/
import proofs.«145979_j20779051778538_2_alg».proof.Proof.Gen.ReferenceIdeal.Read
import proofs.«145979_j20779051778538_2_alg».proof.Proof.Quad

noncomputable section

namespace Cert.ReferenceIdeal.Solved

open Cert.ReferenceIdeal Cert.ReferenceIdeal.Read Idealize.ShloMosaic Idealize.ShloMosaic.ValueIdx Cert.Quad

/-- Where entry (o, i, k) reads eᵃ's argument: block entry (0, 0) of pair (o, i). -/
theorem at_a (o ii : Fin 512) (k : Fin 121) :
    idx_main_v0 (idx_main_v1 (idx_main_v3 (idx_main_v17 (ix3 o ii k)))) = ix4 o ii (0 : Fin 2) (0 : Fin 2) := by
  have ho := o.isLt; have hi := ii.isLt
  funext a
  match a with
  | ⟨0, _⟩ => exact Fin.ext (by show (o.val * 512 + ii.val) / 512 = o.val; omega)
  | ⟨1, _⟩ => exact Fin.ext (by show (o.val * 512 + ii.val) / 1 % 512 = ii.val; omega)
  | ⟨2, _⟩ => rfl
  | ⟨3, _⟩ => rfl

/-- Where it reads c: block entry (1, 0). -/
theorem at_c (o ii : Fin 512) (k : Fin 121) :
    idx_main_v4 (idx_main_v5 (idx_main_v6 (idx_main_v19 (ix3 o ii k)))) = ix4 o ii (1 : Fin 2) (0 : Fin 2) := by
  have ho := o.isLt; have hi := ii.isLt
  funext a
  match a with
  | ⟨0, _⟩ => exact Fin.ext (by show (o.val * 512 + ii.val) / 512 = o.val; omega)
  | ⟨1, _⟩ => exact Fin.ext (by show (o.val * 512 + ii.val) / 1 % 512 = ii.val; omega)
  | ⟨2, _⟩ => rfl
  | ⟨3, _⟩ => rfl

/-- Where it reads eᵈ's argument: block entry (1, 1). -/
theorem at_d (o ii : Fin 512) (k : Fin 121) :
    idx_main_v7 (idx_main_v8 (idx_main_v10 (idx_main_v24 (ix3 o ii k)))) = ix4 o ii (1 : Fin 2) (1 : Fin 2) := by
  have ho := o.isLt; have hi := ii.isLt
  funext a
  match a with
  | ⟨0, _⟩ => exact Fin.ext (by show (o.val * 512 + ii.val) / 512 = o.val; omega)
  | ⟨1, _⟩ => exact Fin.ext (by show (o.val * 512 + ii.val) / 1 % 512 = ii.val; omega)
  | ⟨2, _⟩ => rfl
  | ⟨3, _⟩ => rfl

/-- Where it reads x₁: row 0, column k of the position array. -/
theorem at_x1 (o ii : Fin 512) (k : Fin 121) :
    idx_main_v11 (idx_main_v12 (idx_main_v15 (idx_main_v16 (ix3 o ii k)))) = ix2 (0 : Fin 2) k := by
  have hk := k.isLt
  funext a
  match a with
  | ⟨0, _⟩ => rfl
  | ⟨1, _⟩ => exact Fin.ext (by show k.val % 121 = k.val; omega)

/-- Where it reads x₂: row 1, column k. -/
theorem at_x2 (o ii : Fin 512) (k : Fin 121) :
    idx_main_v13 (idx_main_v14 (idx_main_v21 (idx_main_v22 (ix3 o ii k)))) = ix2 (1 : Fin 2) k := by
  have hk := k.isLt
  funext a
  match a with
  | ⟨0, _⟩ => rfl
  | ⟨1, _⟩ => exact Fin.ext (by show k.val % 121 = k.val; omega)

/-- The stage before the re-laying line is forward substitution at every entry. -/
theorem flat_stage (P : (⟨S512x512x2x2, .f32⟩ : BufTy).Contents (Elt Ideal)) (X : (⟨S2x121, .f32⟩ : BufTy).Contents (Elt Ideal)) :
    val_main_v28 (F := Ideal) P X = solvedArr P X := by
  funext j
  obtain ⟨o, ii, k, rfl⟩ : ∃ (o ii : Fin 512) (k : Fin 121), j = ix3 o ii k := ⟨j 0, j 1, j 2, eq_ix3 j⟩
  rw [val_main_v28_apply, val_main_v26_apply, val_main_v27_apply, val_main_v25_apply, val_main_v23_apply,
    val_main_v20_apply, val_main_v18_apply,
    val_main_v16_apply, val_main_v15_apply, val_main_v12_apply, val_main_v11_apply,
    val_main_v17_apply, val_main_v3_apply, val_main_v2_apply, val_main_v1_apply, val_main_v0_apply,
    val_main_v19_apply, val_main_v6_apply, val_main_v5_apply, val_main_v4_apply,
    val_main_v22_apply, val_main_v21_apply, val_main_v14_apply, val_main_v13_apply,
    val_main_v24_apply, val_main_v10_apply, val_main_v9_apply, val_main_v8_apply, val_main_v7_apply,
    at_a, at_c, at_d, at_x1, at_x2]
  rfl

/-- The reference's result is that stage with its last axis re-laid as 11×11. -/
theorem result_stage (m : (ℓ : Loc nD τ sig) → Buf (Elt Ideal) ℓ) (c : Dev nD) :
    Cert.ReferenceIdeal.Value.res_main_v29 m c
      = shapeCast _ (solvedArr (m ((c.tc : Thread nD τ).loc main_arg0)) (m ((c.tc : Thread nD τ).loc main_arg1))) Gen.shapeCasts_S512x512x121_S512x512x11x11 := by
  rw [val_main_v29_eq]
  unfold val_main_v29
  rw [flat_stage]

end Cert.ReferenceIdeal.Solved

end
-- ==== Proof.Finite.lean ====
/-
  What the precondition says: every entry of both argument arrays is a real number.

  The printed predicate is all(|P| < +∞) ∧ all(|X| < +∞). Each `all` is a reduction by `and` from 1 over every
  axis, so being 1 it had a 1 at every index; a 1 there says max(x, −x) < ⊤ on the extended reals, which excludes
  x = ⊤ (then max is ⊤) and x = ⊥ (then −x = ⊤).
-/
import proofs.«145979_j20779051778538_2_alg».proof.Pre_finite_inputs
import proofs.«145979_j20779051778538_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The rank-0 shape has one index. -/
instance : Subsingleton S_.Idx := ⟨fun a b => funext fun d => d.elim0⟩

/-- The pattern of +∞ denotes ⊤. -/
theorem ofBits_inf : Ideal.ofBits .f32 0x7F800000#32 = ⊤ := by simp [Ideal.ofBits, Ideal.ieee]

/-- An extended real whose absolute value is below +∞ is a real. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot => exact absurd h (by simp [Ideal.cmpf_def, Ideal.absf_def, Ideal.cmp])
  | coe r => exact ⟨r, rfl⟩
  | top => exact absurd h (by simp [Ideal.cmpf_def, Ideal.absf_def, Ideal.cmp])

/-- Under the precondition both argument arrays hold reals only. -/
theorem reals_of_pre (P : FVec Ideal S512x512x2x2 .f32) (X : FVec Ideal S2x121 .f32)
    (h : fn (F := Ideal) P X = fun _ => 1#1) :
    (∀ j, ∃ r : ℝ, P j = (r : EReal)) ∧ (∀ j, ∃ r : ℝ, X j = (r : EReal)) := by
  have h0 := congrFun h ix0
  dsimp only [fn] at h0
  obtain ⟨hP, hX⟩ := IntOp.andi_eq_one.mp h0
  constructor
  · intro j
    exact real_of_abs_lt_inf _ (Host.reduce_andi_all _ _ _ _ ix0 hP j)
  · intro j
    exact real_of_abs_lt_inf _ (Host.reduce_andi_all _ _ _ _ ix0 hX j)

end Cert.Pre_finite_inputs.Finite

end
-- ==== Proof.lean ====
/-
  Both programs compute |L⁻¹x|² for every pair (o, i) of a [512,512] grid of lower-triangular 2×2 factors
  L = [[eᵃ, 0], [c, eᵈ]] and every position x = (x₁, x₂) of a list of 121, returned as [512,512,11,11].

  The reference solves L b = x by forward substitution and adds the squares. The kernel expands the same number as
  a quadratic form in (x₁², x₁x₂, x₂²): the host builds the three monomial rows, and the region, tiled 2×4 over
  the pairs, computes the three coefficients from e^(−a), e^(−d) and c and combines them with the rows.

  * The frames: each kernel program is its host lines, one region, one host line; the region's body loads four
    whole blocks and stores one (Proof/KernelAround.lean, Proof/KernelIdealAround.lean). The reference is host lines
    only, and its run is read back operation by operation.
  * The idealization rewrote nothing, so there is nothing to preserve.
  * The values: the kernel's result is `Quad.expandedArr` of the arguments, re-laid (Proof/KernelIdealWhole.lean);
    the reference's is `Quad.solvedArr`, re-laid the same way (Proof/RefSolved.lean). The two arrays agree wherever
    the arguments are real numbers (Proof/Quad.lean: 1/eᵃ = e^(−a), then the square expanded — distributivity, which
    is why finiteness is needed), and the precondition says they are (Proof/Finite.lean).
-/
import proofs.«145979_j20779051778538_2_alg».proof.Defs
import proofs.«145979_j20779051778538_2_alg».proof.Proof.Gen.Kernel
import proofs.«145979_j20779051778538_2_alg».proof.Proof.Gen.KernelIdeal
import proofs.«145979_j20779051778538_2_alg».proof.Proof.Gen.ReferenceIdeal
import proofs.«145979_j20779051778538_2_alg».proof.Proof.Gen.Pre_finite_inputs
import proofs.«145979_j20779051778538_2_alg».proof.Proof.Gen.ReferenceIdeal.Run
import proofs.«145979_j20779051778538_2_alg».proof.Proof.KernelAround
import proofs.«145979_j20779051778538_2_alg».proof.Proof.KernelIdealWhole
import proofs.«145979_j20779051778538_2_alg».proof.Proof.RefSolved
import proofs.«145979_j20779051778538_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Around.frame m ρ

theorem frame_kernelIdeal : Cert.frame_KernelIdeal := fun m ρ _ => Cert.KernelIdeal.Around.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel ends at the quadratic form of the arguments and the
    reference at forward substitution on them, both re-laid alike; under the precondition the arguments are reals,
    where the two are one array. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hP, hX⟩ := Cert.Pre_finite_inputs.Finite.reals_of_pre _ _ (hpre c)
  rw [Cert.ReferenceIdeal.Solved.result_stage, (hagree c).1, (hagree c).2, Cert.Quad.solvedArr_eq_expandedArr _ _ hP hX]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
